-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S128x2048 : Shape := ⟨2, ![128, 2048]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel

variable [Facts]

def fn {F : FTy → Type} [FloatOps F] (main_arg0 : FVec F S262144x64 .f32) (main_arg1 : FVec F S262144x64 .f32) (main_arg2 : IVec S128x2048 32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  main_v8
-- ==== Kernel.lean ====
abbrev S262144x64 : Shape := ⟨2, ![262144, 64]⟩
abbrev S128x2048 : Shape := ⟨2, ![128, 2048]⟩
abbrev S128x2048x64 : Shape := ⟨3, ![128, 2048, 64]⟩
abbrev S2048x64 : Shape := ⟨2, ![2048, 64]⟩
abbrev S8x1024x64 : Shape := ⟨3, ![8, 1024, 64]⟩
abbrev S1024x64 : Shape := ⟨2, ![1024, 64]⟩
abbrev S8x1024 : Shape := ⟨2, ![8, 1024]⟩
abbrev S8x1024x1 : Shape := ⟨3, ![8, 1024, 1]⟩
abbrev S_ : Shape := ⟨0, ![]⟩

abbrev nBuf : Space → Nat
  | .hbm => 13
  | .vmem => 8
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S128x2048, .i32⟩
  | .hbm, ⟨3, _⟩ => ⟨S128x2048x64, .f32⟩
  | .hbm, ⟨4, _⟩ => ⟨S128x2048x64, .f32⟩
  | .hbm, ⟨5, _⟩ => ⟨S2048x64, .f32⟩
  | .hbm, ⟨6, _⟩ => ⟨S2048x64, .f32⟩
  | .hbm, ⟨7, _⟩ => ⟨S2048x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8x1024x64, .f32⟩
  | .local _ .vmem, ⟨1, _⟩ => ⟨S8x1024x64, .f32⟩
  | .local _ .vmem, ⟨2, _⟩ => ⟨S8x1024x64, .f32⟩
  | .local _ .vmem, ⟨3, _⟩ => ⟨S8x1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S262144x64_S128x2048x64 : S262144x64.ShapeCasts S128x2048x64
  inb_S1024x64_S1024x64_0_0 : ∀ a, (![0, 0] : Fin 2 → Nat) a + S1024x64.size a ≤ S1024x64.size a
  h_S1024x64 : 0 < S1024x64.numel
  inb_S8x1024x64_S8x1024x64_0_0_0 : ∀ a, (![0, 0, 0] : Fin 3 → Nat) a + S8x1024x64.size a ≤ S8x1024x64.size a
  h_S8x1024x64 : 0 < S8x1024x64.numel
  shapeCasts_S8x1024x64_S8x1024x64 : S8x1024x64.ShapeCasts S8x1024x64
  reduces_S8x1024x64_S8x1024 : S8x1024x64.Reduces [2] S8x1024
  shapeCasts_S8x1024_S8x1024x1 : S8x1024.ShapeCasts S8x1024x1
  broadcasts_S8x1024x1_S8x1024x64 : S8x1024x1.Broadcasts S8x1024x64
  shapeCasts_S1024x64_S1024x64 : S1024x64.ShapeCasts S1024x64
  reduces_S8x1024x64_S1024x64 : S8x1024x64.Reduces [0] S1024x64
  reducesTo_S2048x64_S_d0_1 : S2048x64.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x64.size a ≤ S128x2048x64.size a
  hwx0_0 : ∀ i : grid0.Coords, EltTy.bits .f32 = 32 ∨ (Rect.block (s := S128x2048x64) S8x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024x64.size a ≤ S128x2048x64.size a
  hwx0_1 : ∀ i : grid0.Coords, EltTy.bits .f32 = 32 ∨ (Rect.block (s := S128x2048x64) S8x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S2048x64.size a
  hwx0_2 : ∀ i : grid0.Coords, EltTy.bits .f32 = 32 ∨ (Rect.block (s := S2048x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S2048x64.size a
  hwx0_3 : ∀ i : grid0.Coords, EltTy.bits .f32 = 32 ∨ (Rect.block (s := S2048x64) S1024x64.size (cc0_transform_3 i) (hinb0_3 i)).WholeWords (EltTy.packing .f32)

variable [Facts₀]

abbrev win0_0 : Pipeline.Window sig grid0 :=
  Pipeline.Window.ofSpec (Memref.whole main_v0) S8x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x64 : Shape := ⟨2, ![262144, 64]⟩
abbrev S128x2048 : Shape := ⟨2, ![128, 2048]⟩
abbrev S_ : Shape := ⟨0, ![]⟩
abbrev S262144 : Shape := ⟨1, ![262144]⟩
abbrev S262144x1 : Shape := ⟨2, ![262144, 1]⟩
abbrev S128x2048x64 : Shape := ⟨3, ![128, 2048, 64]⟩
abbrev S2048x128x64 : Shape := ⟨3, ![2048, 128, 64]⟩
abbrev S2048x128x128 : Shape := ⟨3, ![2048, 128, 128]⟩

abbrev nBuf : Space → Nat
  | .hbm => 33
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S128x2048, .i32⟩
  | .hbm, ⟨3, _⟩ => ⟨S262144x64, .f32⟩
  | .hbm, ⟨4, _⟩ => ⟨S_, .f32⟩
  | .hbm, ⟨5, _⟩ => ⟨S262144, .f32⟩
  | .hbm, ⟨6, _⟩ => ⟨S262144x1, .f32⟩
  | .hbm, ⟨7, _⟩ => ⟨S262144x1, .f32⟩
  | .hbm, ⟨8, _⟩ => ⟨S_, .f32⟩
  | .hbm, ⟨9, _⟩ => ⟨S262144x1, .f32⟩
  | .hbm, ⟨10, _⟩ => ⟨S262144x1, .f32⟩
  | .hbm, ⟨11, _⟩ => ⟨S262144x64, .f32⟩
  | .hbm, ⟨12, _⟩ => ⟨S262144x64, .f32⟩
  | .hbm, ⟨13, _⟩ => ⟨S128x2048x64, .f32⟩
  | .hbm, ⟨14, _⟩ => ⟨S2048x128x64, .f32⟩
  | .hbm, ⟨15, _⟩ => ⟨S262144x64, .f32⟩
  | .hbm, ⟨16, _⟩ => ⟨S_, .f32⟩
  | .hbm, ⟨17, _⟩ => ⟨S262144, .f32⟩
  | .hbm, ⟨18, _⟩ => ⟨S262144x1, .f32⟩
  | .hbm, ⟨19, _⟩ => ⟨S262144x1, .f32⟩
  | .hbm, ⟨20, _⟩ => ⟨S_, .f32⟩
  | .hbm, ⟨21, _⟩ => ⟨S262144x1, .f32⟩
  | .hbm, ⟨22, _⟩ => ⟨S262144x1, .f32⟩
  | .hbm, ⟨23, _⟩ => ⟨S262144x64, .f32⟩
  | .hbm, ⟨24, _⟩ => ⟨S262144x64, .f32⟩
  | .hbm, ⟨25, _⟩ => ⟨S128x2048x64, .f32⟩
  | .hbm, ⟨26, _⟩ => ⟨S2048x128x64, .f32⟩
  | .hbm, ⟨27, _⟩ => ⟨S2048x128x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]

class Facts₀ : Prop where
  reducesTo_S262144x64_S262144_d1 : S262144x64.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x64_0_1 : S262144x1.BroadcastsInDim S262144x64 (![0, 1] : Fin 2 → Fin S262144x64.rank)
  shapeCasts_S262144x64_S128x2048x64 : S262144x64.ShapeCasts S128x2048x64
  transposes_S128x2048x64_S2048x128x64_1_0_2 : S128x2048x64.Transposes [1, 0, 2] S2048x128x64
  reducesTo_S2048x128x128_S_d0_1_2 : S2048x128x128.ReducesTo [0, 1, 2] S_
  dot_S2048x128x64_S2048x128x64_S2048x128x128_2_2_1_1_0_0_wf : DotDims.WF S2048x128x64 S2048x128x64 S2048x128x128 [2] [2] [1] [1] [0] [0]

variable [Facts₀]

def dot_S2048x128x64_S2048x128x64_S2048x128x128_2_2_1_1_0_0 : DotDims S2048x128x64 S2048x128x64 S2048x128x128 where
  lhsContracting := [2]
  rhsContracting := [2]
  lhsNonContracting := [1]
  rhsNonContracting := [1]
  lhsBatch := [0]
  rhsBatch := [0]
  wf := dot_S2048x128x64_S2048x128x64_S2048x128x128_2_2_1_1_0_0_wf

class Facts : Prop extends Facts₀ where

variable [Facts]
-- ==== Proof.Spec.lean ====
/-
  The mathematics of the certificate, with no program in sight.

  Both programs take two arrays `p`, `z` of 262144 rows of 64 numbers, read as 128 time steps of 2048 trajectories
  (row `t * 2048 + n` is trajectory `n` at time `t`), divide every row by its Euclidean norm clamped from below at a small
  constant, and return minus the mean, over all trajectories `n` and all pairs of times `(t, s)`, of the inner product of
  the normalized row `(t, n)` of `p` with the normalized row `(s, n)` of `z`. One of them forms the 2048 · 128 · 128 inner
  products; the other first adds up the normalized rows of each trajectory over time and then takes 2048 inner products
  of the two sums. Over the reals the two are equal because a product of two finite sums is the double sum of the
  products (`sum_prod_eq`). The one that sums first also clamps the SQUARE of the norm at the SQUARE of the constant and
  multiplies by the reciprocal square root, which is the same number because the square root is monotone (`rsqrt_form`).
-/
import Idealize.ShloMosaic.PureOps.Ideal
import Idealize.ShloMosaic.Lib.ValueIdx

noncomputable section

open scoped BigOperators

namespace Cert.Spec

/-- The constant a row's norm is clamped at from below: 2305843 / 2^61, a little under 10⁻¹². -/
def clamp : ℝ := 2305843 / 2305843009213693952

theorem clamp_pos : 0 < clamp := by unfold clamp; norm_num

/-- Its square, the constant a row's sum of squares is clamped at. -/
theorem clamp_sq : clamp * clamp = 5316911940649 / 5316911983139663491615228241121378304 := by
  unfold clamp; norm_num

/-- Row `t * 2048 + n`: trajectory `n` at time `t`. -/
def rowOf (t : Fin 128) (n : Fin 2048) : Fin 262144 :=
  ⟨t.val * 2048 + n.val, by have := t.isLt; have := n.isLt; omega⟩

/-- A row's Euclidean norm, clamped from below. -/
def nrm (x : Fin 64 → ℝ) : ℝ := max (Real.sqrt (∑ e, x e * x e)) clamp

theorem nrm_pos (x : Fin 64 → ℝ) : 0 < nrm x := lt_max_of_lt_right clamp_pos

/-- Entry `d` of the normalized row of trajectory `n` at time `t`. -/
def unit (P : Fin 262144 → Fin 64 → ℝ) (t : Fin 128) (n : Fin 2048) (d : Fin 64) : ℝ :=
  P (rowOf t n) d / nrm (P (rowOf t n))

/-- The loss: minus the mean over `(n, t, s)` of the inner products of the normalized rows; there are
    2048 · 128 · 128 = 33554432 of them. -/
def loss (P Z : Fin 262144 → Fin 64 → ℝ) : ℝ :=
  -((∑ n : Fin 2048, ∑ t : Fin 128, ∑ s : Fin 128, ∑ d : Fin 64, unit P t n d * unit Z s n d) / 33554432)

/-- The same with the sums over time taken first. -/
def lossSummed (P Z : Fin 262144 → Fin 64 → ℝ) : ℝ :=
  (-(∑ n : Fin 2048, ∑ d : Fin 64, (∑ t : Fin 128, unit P t n d) * (∑ s : Fin 128, unit Z s n d))) / 33554432

/-- Multiplying by the reciprocal square root of the sum of squares clamped at `clamp²` is dividing by the clamped norm:
    the square root is monotone, so it commutes with the maximum, and `√(clamp²) = clamp`. -/
theorem rsqrt_form (x : Fin 64 → ℝ) (v : ℝ) :
    v * (Real.sqrt (max (∑ e, x e * x e) (clamp * clamp)))⁻¹ = v / nrm x := by
  have hm : Monotone Real.sqrt := fun a b h => Real.sqrt_le_sqrt h
  rw [hm.map_max, Real.sqrt_mul_self clamp_pos.le, div_eq_mul_inv]
  rfl

/-- The clamped sum of squares is positive. -/
theorem clamped_pos (x : Fin 64 → ℝ) : 0 < max (∑ e, x e * x e) (clamp * clamp) :=
  lt_max_of_lt_right (mul_pos clamp_pos clamp_pos)

/-- A sum of squares is not negative. -/
theorem sumsq_nonneg (x : Fin 64 → ℝ) : 0 ≤ ∑ e, x e * x e :=
  Finset.sum_nonneg fun e _ => mul_self_nonneg (x e)

/-- A finite sum of reals, read in the extended reals, is the sum of the summands read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two sums is the double sum of the products, summand by summand over a third index: summing over time
    first and multiplying after gives what multiplying every pair of times and summing after gives. -/
theorem sum_prod_eq {T N D : Type*} [Fintype T] [Fintype N] [Fintype D] (a b : T → N → D → ℝ) :
    ∑ n, ∑ d, (∑ t, a t n d) * (∑ s, b s n d) = ∑ n, ∑ t, ∑ s, ∑ d, a t n d * b s n d := by
  refine Finset.sum_congr rfl fun n _ => ?_
  simp_rw [Finset.sum_mul_sum]
  rw [Finset.sum_comm]
  refine Finset.sum_congr rfl fun t _ => ?_
  rw [Finset.sum_comm]

/-- So the two forms of the loss are one number. -/
theorem lossSummed_eq (P Z : Fin 262144 → Fin 64 → ℝ) : lossSummed P Z = loss P Z := by
  unfold lossSummed loss
  rw [sum_prod_eq (fun t n d => unit P t n d) (fun s n d => unit Z s n d), neg_div]

/-- A sum over the indices of a rank-3 shape is the triple sum over the coordinates. -/
theorem sum_idx3 {M : Type*} [AddCommMonoid M] {n0 n1 n2 : Nat}
    (f : (⟨3, ![n0, n1, n2]⟩ : Idealize.ShloMosaic.Shape).Idx → M) :
    ∑ i, f i = ∑ a : Fin n0, ∑ b : Fin n1, ∑ c : Fin n2, f (Idealize.ShloMosaic.ValueIdx.ix3 a b c) := by
  let e : (⟨3, ![n0, n1, n2]⟩ : Idealize.ShloMosaic.Shape).Idx ≃ Fin n0 × Fin n1 × Fin n2 :=
    { toFun := fun i => (i 0, i 1, i 2)
      invFun := fun p => Idealize.ShloMosaic.ValueIdx.ix3 p.1 p.2.1 p.2.2
      left_inv := fun i => (Idealize.ShloMosaic.ValueIdx.eq_ix3 i).symm
      right_inv := fun _ => rfl }
  rw [← Equiv.sum_comp e.symm f, Fintype.sum_prod_type]
  refine Finset.sum_congr rfl fun a _ => ?_
  rw [Fintype.sum_prod_type]
  rfl

end Cert.Spec

end
-- ==== Proof.Payload.lean ====
/-
  What the kernel's body adds to an accumulator block, entry by entry.

  The body holds a block `x` of 8 time steps × 1024 trajectories × 64 features and an accumulator `acc` of
  1024 × 64. For each of the 8 · 1024 rows it takes the sum of squares, clamps it from below at a small positive
  constant, takes the reciprocal square root and multiplies the row by it; then it adds the 8 normalized slabs to the
  accumulator. So entry `(r, d)` of what it stores is `acc (r, d) + Σ_b x (b, r, d) · rsqrt (max (Σ_e x (b, r, e)²) c)`.
-/
import proofs.«120085_j13872744366785_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

variable [Cert.KernelIdeal.Facts]

/-- The constant the sum of squares is clamped at, as the program names it. -/
def epsSq : EReal := Named.named (F := Ideal) κ "eps_sq" (φ := .f32) 0x179ABE15#32

/-- Entry `(b, r, d)` of a block whose rows are normalized: the entry times the reciprocal square root of its row's
    clamped sum of squares. -/
def nrow (x : S8x1024x64.Idx → EReal) (b : Fin 8) (r : Fin 1024) (d : Fin 64) : EReal :=
  x (ix3 b r d) * Ideal.rsqrt (max (∑ e : Fin 64, x (ix3 b r e) * x (ix3 b r e)) epsSq)

/-- A sum along the feature axis, read at row `(b, r)`. -/
theorem sum_features (v : FVec Ideal S8x1024x64 .f32) (hacc : (0x00000000#32 : BitVec 32) = 0x00000000#32) (b : Fin 8) (r : Fin 1024) :
    multiReduction .add [2] S8x1024 v 0x00000000#32 Facts₀.reduces_S8x1024x64_S8x1024 (.inl rfl) hacc (ix2 b r)
      = ∑ e : Fin 64, v (ix3 b r e) := by
  refine (Ideal.multiReduction_add_single v 0x00000000#32 Facts₀.reduces_S8x1024x64_S8x1024 (.inl rfl) hacc (ix2 b r)).trans ?_
  refine Finset.sum_congr rfl fun e _ => ?_
  exact congrArg v (funext fun a => Fin.ext (by match a with | ⟨0, _⟩ => rfl | ⟨1, _⟩ => rfl | ⟨2, _⟩ => rfl))

/-- A sum along the time axis of the block, read at `(r, d)`. -/
theorem sum_slabs (v : FVec Ideal S8x1024x64 .f32) (hacc : (0x00000000#32 : BitVec 32) = 0x00000000#32) (r : Fin 1024) (d : Fin 64) :
    multiReduction .add [0] S1024x64 v 0x00000000#32 Facts₀.reduces_S8x1024x64_S1024x64 (.inl rfl) hacc (ix2 r d)
      = ∑ b : Fin 8, v (ix3 b r d) := by
  refine (Ideal.multiReduction_add_single v 0x00000000#32 Facts₀.reduces_S8x1024x64_S1024x64 (.inl rfl) hacc (ix2 r d)).trans ?_
  refine Finset.sum_congr rfl fun b _ => ?_
  exact congrArg v (funext fun a => Fin.ext (by match a with | ⟨0, _⟩ => rfl | ⟨1, _⟩ => rfl | ⟨2, _⟩ => rfl))

/-- A [8, 1024] array given a trailing unit axis, read at `(b, r, 0)`. -/
theorem keepdims_apply (v : FVec Ideal S8x1024 .f32) (b : Fin 8) (r : Fin 1024) (z : Fin 1) :
    shapeCast S8x1024x1 v Facts₀.shapeCasts_S8x1024_S8x1024x1 (ix3 b r z) = v (ix2 b r) := by
  refine shapeCast_apply v Facts₀.shapeCasts_S8x1024_S8x1024x1 (ix3 b r z) (ix2 b r) ?_
  rw [Shape.rowMajor_val_two, Shape.rowMajor_val_three]
  have hz : z.val = 0 := by have := z.isLt; omega
  show b.val * 1024 + r.val = (b.val * 1024 + r.val) * 1 + z.val
  omega

/-- A [8, 1024, 1] array repeated along the feature axis, read at `(b, r, d)`. -/
theorem spread_apply (v : FVec Ideal S8x1024x1 .f32) (b : Fin 8) (r : Fin 1024) (d : Fin 64) :
    broadcastTo S8x1024x64 v Facts₀.broadcasts_S8x1024x1_S8x1024x64 (ix3 b r d) = v (ix3 b r (0 : Fin 1)) := by
  refine broadcastTo_apply v Facts₀.broadcasts_S8x1024x1_S8x1024x64 (ix3 b r d) (ix3 b r (0 : Fin 1)) (fun a => ?_)
  match a with
  | ⟨0, _⟩ => show b.val = if (8 : Nat) = 1 then 0 else b.val; rw [if_neg (by decide)]
  | ⟨1, _⟩ => show r.val = if (1024 : Nat) = 1 then 0 else r.val; rw [if_neg (by decide)]
  | ⟨2, _⟩ => show 0 = if (1 : Nat) = 1 then 0 else d.val; rw [if_pos rfl]

/-- The reciprocal square root of a row's clamped sum of squares, as the body forms it, read at `(b, r, 0)`. -/
theorem scale_apply (x : FVec Ideal S8x1024x64 .f32) (hacc : (0x00000000#32 : BitVec 32) = 0x00000000#32) (b : Fin 8) (r : Fin 1024) :
    rsqrt (maximumf (shapeCast S8x1024x1 (multiReduction .add [2] S8x1024 (mulf x x) 0x00000000#32
        Facts₀.reduces_S8x1024x64_S8x1024 (.inl rfl) hacc) Facts₀.shapeCasts_S8x1024_S8x1024x1)
      (broadcast S8x1024x1 (Named.named (F := Ideal) κ "eps_sq" (φ := .f32) 0x179ABE15#32))) (ix3 b r (0 : Fin 1))
      = Ideal.rsqrt (max (∑ e : Fin 64, x (ix3 b r e) * x (ix3 b r e)) epsSq) := by
  show Ideal.rsqrt (max (shapeCast S8x1024x1 _ Facts₀.shapeCasts_S8x1024_S8x1024x1 (ix3 b r (0 : Fin 1))) epsSq) = _
  rw [keepdims_apply, sum_features]
  rfl

/-- What the body stores into the first accumulator, entry by entry: the accumulator plus the 8 normalized slabs. -/
theorem pay3_apply (x0 : Vec Ideal S8x1024x64 .f32) (acc : Vec Ideal S1024x64 .f32) (r : Fin 1024) (d : Fin 64) :
    k0_pay3 (F := Ideal) x0 acc (ix2 r d) = acc (ix2 r d) + ∑ b : Fin 8, nrow x0 b r d := by
  unfold k0_pay3
  dsimp only
  rw [shapeCast_self, shapeCast_self]
  show acc (ix2 r d) + _ = _
  refine congrArg (acc (ix2 r d) + ·) ?_
  refine (sum_slabs _ rfl r d).trans ?_
  refine Finset.sum_congr rfl fun b _ => ?_
  show x0 (ix3 b r d) * _ = nrow x0 b r d
  unfold nrow
  refine congrArg (x0 (ix3 b r d) * ·) ?_
  refine (spread_apply _ b r d).trans ?_
  exact scale_apply x0 rfl b r

/-- The same for the second accumulator. -/
theorem pay4_apply (x1 : Vec Ideal S8x1024x64 .f32) (acc : Vec Ideal S1024x64 .f32) (r : Fin 1024) (d : Fin 64) :
    k0_pay4 (F := Ideal) x1 acc (ix2 r d) = acc (ix2 r d) + ∑ b : Fin 8, nrow x1 b r d := by
  unfold k0_pay4
  dsimp only
  rw [shapeCast_self, shapeCast_self]
  show acc (ix2 r d) + _ = _
  refine congrArg (acc (ix2 r d) + ·) ?_
  refine (sum_slabs _ rfl r d).trans ?_
  refine Finset.sum_congr rfl fun b _ => ?_
  show x1 (ix3 b r d) * _ = nrow x1 b r d
  unfold nrow
  refine congrArg (x1 (ix3 b r d) * ·) ?_
  refine (spread_apply _ b r d).trans ?_
  exact scale_apply x1 rfl b r

/-- The block of zeros the first time step of a trajectory block starts from. -/
theorem pay1_apply (j : S1024x64.Idx) : k0_pay1 (F := Ideal) j = Ideal.ofBits .f32 0x00000000#32 := rfl

theorem pay2_apply (j : S1024x64.Idx) : k0_pay2 (F := Ideal) j = Ideal.ofBits .f32 0x00000000#32 := rfl

end Cert.KernelIdeal.PayValue

end
-- ==== Proof.Pieces.lean ====
/-
  What one run of the kernel's body leaves in the two accumulator blocks.

  At the first time block of a trajectory block the body first overwrites both accumulators with zeros and then adds the
  block's normalized slabs to what it reads back; at every later time block it adds them to what the accumulators held.
  Each accumulator is rewritten whole, by one store through the whole-block rectangle, so what it holds afterwards is
  that store's value.
-/
import proofs.«120085_j13872744366785_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later time block: the first accumulator ends at its old contents plus the block's normalized slabs. -/
theorem out_B_2 (c : Dev nD) (i : grid0.Coords) (a2 : Memref sig .tc .vmem S8x1024x64 .f32) (h2 : a2.IsWhole)
    (a3 : Memref sig .tc .vmem S8x1024x64 .f32) (h3 : a3.IsWhole) (a4 : Memref sig .tc .vmem S1024x64 .f32) (h4 : a4.IsWhole)
    (a5 : Memref sig .tc .vmem S1024x64 .f32) (h5 : a5.IsWhole) (hc : ¬cond0_0 i) (x0 x1 : Vec F S8x1024x64 .f32)
    (xo2 xo3 : Vec F S1024x64 .f32) :
    out0_B_2 c i a2 h2 a3 h3 a4 h4 a5 h5 hc x0 x1 xo2 xo3 = k0_pay3 x0 xo2 := by
  unfold out0_B_2
  rw [View.read_writes_eq_canon _ _ _ (cover0_B_2 c i a2 h2 a3 h3 a4 h4 a5 h5 hc x0 x1 xo2 xo3)]
  unfold kernelRun0_B
  dsimp only
  rw [View.canon_unit_zero hz2]
  simp only [View.readAt_eq_ld, h2.read_unread, h4.read_unread, View.ld_unit_zero (S := S8x1024x64) hz3,
    View.ld_unit_zero (S := S1024x64) hz2]

/-- A later time block: the second accumulator likewise. -/
theorem out_B_3 (c : Dev nD) (i : grid0.Coords) (a2 : Memref sig .tc .vmem S8x1024x64 .f32) (h2 : a2.IsWhole)
    (a3 : Memref sig .tc .vmem S8x1024x64 .f32) (h3 : a3.IsWhole) (a4 : Memref sig .tc .vmem S1024x64 .f32) (h4 : a4.IsWhole)
    (a5 : Memref sig .tc .vmem S1024x64 .f32) (h5 : a5.IsWhole) (hc : ¬cond0_0 i) (x0 x1 : Vec F S8x1024x64 .f32)
    (xo2 xo3 : Vec F S1024x64 .f32) :
    out0_B_3 c i a2 h2 a3 h3 a4 h4 a5 h5 hc x0 x1 xo2 xo3 = k0_pay4 x1 xo3 := by
  unfold out0_B_3
  rw [View.read_writes_eq_canon _ _ _ (cover0_B_3 c i a2 h2 a3 h3 a4 h4 a5 h5 hc x0 x1 xo2 xo3)]
  unfold kernelRun0_B
  dsimp only
  rw [View.canon_unit_zero hz2]
  simp only [View.readAt_eq_ld, h3.read_unread, h5.read_unread, View.ld_unit_zero (S := S8x1024x64) hz3,
    View.ld_unit_zero (S := S1024x64) hz2]

/-- The first time block: the first accumulator ends at zeros plus the block's normalized slabs. -/
theorem out_A_2 (c : Dev nD) (i : grid0.Coords) (a2 : Memref sig .tc .vmem S8x1024x64 .f32) (h2 : a2.IsWhole)
    (a3 : Memref sig .tc .vmem S8x1024x64 .f32) (h3 : a3.IsWhole) (a4 : Memref sig .tc .vmem S1024x64 .f32) (h4 : a4.IsWhole)
    (a5 : Memref sig .tc .vmem S1024x64 .f32) (h5 : a5.IsWhole) (hc : cond0_0 i) (x0 x1 : Vec F S8x1024x64 .f32) :
    out0_A_2 c i a2 h2 a3 h3 a4 h4 a5 h5 hc x0 x1 = k0_pay3 x0 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1024x64) hz2, View.readCov_unit_zero (S := S1024x64) _ hz2]
  simp only [View.readAt_eq_ld, h2.read_unread, View.ld_unit_zero (S := S8x1024x64) hz3]

/-- The first time block: the second accumulator likewise. -/
theorem out_A_3 (c : Dev nD) (i : grid0.Coords) (a2 : Memref sig .tc .vmem S8x1024x64 .f32) (h2 : a2.IsWhole)
    (a3 : Memref sig .tc .vmem S8x1024x64 .f32) (h3 : a3.IsWhole) (a4 : Memref sig .tc .vmem S1024x64 .f32) (h4 : a4.IsWhole)
    (a5 : Memref sig .tc .vmem S1024x64 .f32) (h5 : a5.IsWhole) (hc : cond0_0 i) (x0 x1 : Vec F S8x1024x64 .f32) :
    out0_A_3 c i a2 h2 a3 h3 a4 h4 a5 h5 hc x0 x1 = k0_pay4 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1024x64) hz2, View.readCov_unit_zero (S := S1024x64) _ hz2]
  simp only [View.readAt_eq_ld, h3.read_unread, View.ld_unit_zero (S := S8x1024x64) hz3]

end Cert.KernelIdeal.Pieces

end
-- ==== Proof.Accum.lean ====
/-
  What the two accumulator blocks hold after each grid point.

  The grid has 2 trajectory blocks of 1024 trajectories, each swept by 16 time blocks of 8 time steps; point `n` is time
  block `n % 16` of trajectory block `n / 16`. A block read through the input window at that point is rows
  `8 · (n % 16) + b`, trajectories `1024 · (n / 16) + r` of the [128, 2048, 64] array. The accumulators are reset at time
  block 0 and written back after time block 15, so after point `n` each holds, at `(r, d)`, the sum over the time blocks
  `0 … n % 16` of the 8 normalized entries `(8 j + b, 1024 · (n / 16) + r, d)`: by induction on the point.
-/
import proofs.«120085_j13872744366785_2_alg».proof.Proof.Payload
import proofs.«120085_j13872744366785_2_alg».proof.Proof.Pieces

noncomputable section

open scoped BigOperators

namespace Cert.KernelIdeal.Accum

open Idealize.ShloMosaic Idealize.ShloMosaic.TcCoe Idealize.SL.Sem Idealize.ShloMosaic.ValueIdx
open Cert.KernelIdeal Cert.KernelIdeal.Gen Cert.KernelIdeal.PayValue

/-- Entry `(t, n, d)` of a [128, 2048, 64] array whose rows are normalized. -/
def nent (A : S128x2048x64.Idx → EReal) (t : Fin 128) (n : Fin 2048) (d : Fin 64) : EReal :=
  A (ix3 t n d) * Ideal.rsqrt (max (∑ e : Fin 64, A (ix3 t n e) * A (ix3 t n e)) epsSq)

/-- What time block `j` adds at `(r, d)` of trajectory block `nb`: its 8 normalized entries. -/
def slab (A : S128x2048x64.Idx → EReal) (nb : ℕ) (r : Fin 1024) (d : Fin 64) (j : ℕ) : EReal :=
  if h : j < 16 ∧ nb < 2 then
    ∑ b : Fin 8, nent A ⟨j * 8 + b.val, by have := b.isLt; omega⟩ ⟨nb * 1024 + r.val, by have := r.isLt; omega⟩ d
  else 0

/-- The normalized slabs of a block that is time block `j` of trajectory block `nb` of `A`. -/
theorem slabs_of_block (A : S128x2048x64.Idx → EReal) (x : S8x1024x64.Idx → EReal) (j nb : ℕ) (hj : j < 16) (hnb : nb < 2)
    (hx : ∀ (b : Fin 8) (r : Fin 1024) (e : Fin 64),
      x (ix3 b r e) = A (ix3 ⟨j * 8 + b.val, by have := b.isLt; omega⟩ ⟨nb * 1024 + r.val, by have := r.isLt; omega⟩ e))
    (r : Fin 1024) (d : Fin 64) : ∑ b : Fin 8, nrow x b r d = slab A nb r d j := by
  unfold slab
  rw [dif_pos ⟨hj, hnb⟩]
  refine Finset.sum_congr rfl fun b _ => ?_
  unfold nrow nent
  simp only [hx]

/-- At the first time block of point `n` the stored value is the block's slabs (added to zeros). -/
theorem first_apply (A : S128x2048x64.Idx → EReal) (x : Vec Ideal S8x1024x64 .f32) (n : ℕ) (hn : n < 32)
    (hx : ∀ (b : Fin 8) (r : Fin 1024) (e : Fin 64),
      x (ix3 b r e) = A (ix3 ⟨n % 16 * 8 + b.val, by have := b.isLt; omega⟩ ⟨n / 16 * 1024 + r.val, by have := r.isLt; omega⟩ e))
    (r : Fin 1024) (d : Fin 64) :
    k0_pay3 (F := Ideal) x (k0_pay1 (F := Ideal)) (ix2 r d) = slab A (n / 16) r d (n % 16) := by
  rw [pay3_apply, pay1_apply, Ideal.ofBits_zero_f32, zero_add,
    slabs_of_block A x (n % 16) (n / 16) (by omega) (by omega) hx]

theorem first_apply' (A : S128x2048x64.Idx → EReal) (x : Vec Ideal S8x1024x64 .f32) (n : ℕ) (hn : n < 32)
    (hx : ∀ (b : Fin 8) (r : Fin 1024) (e : Fin 64),
      x (ix3 b r e) = A (ix3 ⟨n % 16 * 8 + b.val, by have := b.isLt; omega⟩ ⟨n / 16 * 1024 + r.val, by have := r.isLt; omega⟩ e))
    (r : Fin 1024) (d : Fin 64) :
    k0_pay4 (F := Ideal) x (k0_pay2 (F := Ideal)) (ix2 r d) = slab A (n / 16) r d (n % 16) := by
  rw [pay4_apply, pay2_apply, Ideal.ofBits_zero_f32, zero_add,
    slabs_of_block A x (n % 16) (n / 16) (by omega) (by omega) hx]

/-- At a later time block it is the old contents plus the block's slabs. -/
theorem later_apply (A : S128x2048x64.Idx → EReal) (x : Vec Ideal S8x1024x64 .f32) (acc : Vec Ideal S1024x64 .f32)
    (n : ℕ) (hn : n < 32)
    (hx : ∀ (b : Fin 8) (r : Fin 1024) (e : Fin 64),
      x (ix3 b r e) = A (ix3 ⟨n % 16 * 8 + b.val, by have := b.isLt; omega⟩ ⟨n / 16 * 1024 + r.val, by have := r.isLt; omega⟩ e))
    (r : Fin 1024) (d : Fin 64) :
    k0_pay3 (F := Ideal) x acc (ix2 r d) = acc (ix2 r d) + slab A (n / 16) r d (n % 16) := by
  rw [pay3_apply, slabs_of_block A x (n % 16) (n / 16) (by omega) (by omega) hx]

theorem later_apply' (A : S128x2048x64.Idx → EReal) (x : Vec Ideal S8x1024x64 .f32) (acc : Vec Ideal S1024x64 .f32)
    (n : ℕ) (hn : n < 32)
    (hx : ∀ (b : Fin 8) (r : Fin 1024) (e : Fin 64),
      x (ix3 b r e) = A (ix3 ⟨n % 16 * 8 + b.val, by have := b.isLt; omega⟩ ⟨n / 16 * 1024 + r.val, by have := r.isLt; omega⟩ e))
    (r : Fin 1024) (d : Fin 64) :
    k0_pay4 (F := Ideal) x acc (ix2 r d) = acc (ix2 r d) + slab A (n / 16) r d (n % 16) := by
  rw [pay4_apply, slabs_of_block A x (n % 16) (n / 16) (by omega) (by omega) hx]

variable (m : (ℓ : Loc nD τ sig) → Buf (Elt Ideal) ℓ)

/-- The input windows' block index at point `t`: time block `t % 16`, trajectory block `t / 16`, all 64 features. -/
theorem idx_in0 : ∀ t : Fin cfg0.N, win0_0.index t 0 = t.val % 16 ∧ win0_0.index t 1 = t.val / 16 ∧ win0_0.index t 2 = 0 :=
  (by decide +kernel : ∀ t : Fin grid0.N, win0_0.index t 0 = t.val % 16 ∧ win0_0.index t 1 = t.val / 16 ∧ win0_0.index t 2 = 0)
theorem idx_in1 : ∀ t : Fin cfg0.N, win0_1.index t 0 = t.val % 16 ∧ win0_1.index t 1 = t.val / 16 ∧ win0_1.index t 2 = 0 :=
  (by decide +kernel : ∀ t : Fin grid0.N, win0_1.index t 0 = t.val % 16 ∧ win0_1.index t 1 = t.val / 16 ∧ win0_1.index t 2 = 0)

/-- The first input's block at point `n`, entry by entry. -/
theorem blk0 (c : Dev nD) (n : ℕ) (hn : n < cfg0.N) (hn' : n < 32) (b : Fin 8) (r : Fin 1024) (e : Fin 64) :
    (iblk m c 0 ⟨n, hn⟩ : Vec Ideal S8x1024x64 .f32) (ix3 b r e)
      = V m c main_v0 (ix3 ⟨n % 16 * 8 + b.val, by have := b.isLt; omega⟩ ⟨n / 16 * 1024 + r.val, by have := r.isLt; omega⟩ e) := by
  have i0 : win0_0.index ⟨n, hn⟩ 0 = n % 16 := (idx_in0 ⟨n, hn⟩).1
  have i1 : win0_0.index ⟨n, hn⟩ 1 = n / 16 := (idx_in0 ⟨n, hn⟩).2.1
  have i2 : win0_0.index ⟨n, hn⟩ 2 = 0 := (idx_in0 ⟨n, hn⟩).2.2
  unfold iblk
  rw [View.read_apply]
  show V m c main_v0 _ = V m c main_v0 _
  refine congrArg (V m c main_v0) (funext fun a => Fin.ext ?_)
  match a with
  | ⟨0, _⟩ => show win0_0.index ⟨n, hn⟩ 0 * 8 + 1 * b.val = n % 16 * 8 + b.val; rw [i0]; omega
  | ⟨1, _⟩ => show win0_0.index ⟨n, hn⟩ 1 * 1024 + 1 * r.val = n / 16 * 1024 + r.val; rw [i1]; omega
  | ⟨2, _⟩ => show win0_0.index ⟨n, hn⟩ 2 * 64 + 1 * e.val = e.val; rw [i2]; omega

/-- The second input's block at point `n`, entry by entry. -/
theorem blk1 (c : Dev nD) (n : ℕ) (hn : n < cfg0.N) (hn' : n < 32) (b : Fin 8) (r : Fin 1024) (e : Fin 64) :
    (iblk m c 1 ⟨n, hn⟩ : Vec Ideal S8x1024x64 .f32) (ix3 b r e)
      = V m c main_v1 (ix3 ⟨n % 16 * 8 + b.val, by have := b.isLt; omega⟩ ⟨n / 16 * 1024 + r.val, by have := r.isLt; omega⟩ e) := by
  have i0 : win0_1.index ⟨n, hn⟩ 0 = n % 16 := (idx_in1 ⟨n, hn⟩).1
  have i1 : win0_1.index ⟨n, hn⟩ 1 = n / 16 := (idx_in1 ⟨n, hn⟩).2.1
  have i2 : win0_1.index ⟨n, hn⟩ 2 = 0 := (idx_in1 ⟨n, hn⟩).2.2
  unfold iblk
  rw [View.read_apply]
  show V m c main_v1 _ = V m c main_v1 _
  refine congrArg (V m c main_v1) (funext fun a => Fin.ext ?_)
  match a with
  | ⟨0, _⟩ => show win0_1.index ⟨n, hn⟩ 0 * 8 + 1 * b.val = n % 16 * 8 + b.val; rw [i0]; omega
  | ⟨1, _⟩ => show win0_1.index ⟨n, hn⟩ 1 * 1024 + 1 * r.val = n / 16 * 1024 + r.val; rw [i1]; omega
  | ⟨2, _⟩ => show win0_1.index ⟨n, hn⟩ 2 * 64 + 1 * e.val = e.val; rw [i2]; omega

/-- The partial sum over the time blocks `0 … n % 16` of trajectory block `n / 16`. -/
def psum (A : S128x2048x64.Idx → EReal) (n : ℕ) (r : Fin 1024) (d : Fin 64) : EReal :=
  ∑ j ∈ Finset.range (n % 16 + 1), slab A (n / 16) r d j

/-- At the first time block of a trajectory block the partial sum is that block's slabs. -/
theorem psum_first (A : S128x2048x64.Idx → EReal) (n : ℕ) (h0 : n % 16 = 0) (r : Fin 1024) (d : Fin 64) :
    psum A n r d = slab A (n / 16) r d (n % 16) := by
  unfold psum
  rw [Finset.sum_range_succ, h0, Finset.sum_range_zero, zero_add]

/-- At a later one it is the previous point's partial sum plus that block's slabs. -/
theorem psum_later (A : S128x2048x64.Idx → EReal) (k : ℕ) (h0 : ¬(k + 1) % 16 = 0) (r : Fin 1024) (d : Fin 64) :
    psum A (k + 1) r d = psum A k r d + slab A ((k + 1) / 16) r d ((k + 1) % 16) := by
  have e1 : (k + 1) / 16 = k / 16 := by omega
  have e2 : (k + 1) % 16 = k % 16 + 1 := by omega
  unfold psum
  rw [Finset.sum_range_succ, e1, e2]

/-- A point that is the first time block of its trajectory block. -/
theorem acc_first (c : Dev nD) (n : ℕ) (hn : n < cfg0.N) (h0 : n % 16 = 0) (r : Fin 1024) (d : Fin 64) :
    (outsAt0 m c n hn).1 (ix2 r d) = psum (V m c main_v0) n r d
    ∧ (outsAt0 m c n hn).2 (ix2 r d) = psum (V m c main_v1) n r d := by
  have hN : n < 32 := lt_of_lt_of_eq hn N_0
  rw [psum_first _ n h0, psum_first _ n h0]
  have e := outsAt0_A m c ⟨n, hn⟩ h0
  rw [show outsAt0 m c n hn = _ from e]
  dsimp only
  rw [Pieces.out_A_2, Pieces.out_A_3]
  exact ⟨first_apply (V m c main_v0) (iblk m c 0 ⟨n, hn⟩) n hN (fun b r e => blk0 m c n hn hN b r e) r d,
    first_apply' (V m c main_v1) (iblk m c 1 ⟨n, hn⟩) n hN (fun b r e => blk1 m c n hn hN b r e) r d⟩

/-- A later point, given what the point before left. -/
theorem acc_later (c : Dev nD) (k : ℕ) (hn : k + 1 < cfg0.N) (h0 : ¬(k + 1) % 16 = 0) (r : Fin 1024) (d : Fin 64)
    (ih1 : (outsAt0 m c k (Nat.lt_of_succ_lt hn)).1 (ix2 r d) = psum (V m c main_v0) k r d)
    (ih2 : (outsAt0 m c k (Nat.lt_of_succ_lt hn)).2 (ix2 r d) = psum (V m c main_v1) k r d) :
    (outsAt0 m c (k + 1) hn).1 (ix2 r d) = psum (V m c main_v0) (k + 1) r d
    ∧ (outsAt0 m c (k + 1) hn).2 (ix2 r d) = psum (V m c main_v1) (k + 1) r d := by
  have hN : k + 1 < 32 := lt_of_lt_of_eq hn N_0
  rw [psum_later _ k h0, psum_later _ k h0, ← ih1, ← ih2]
  have e := outsAt0_B m c ⟨k + 1, hn⟩ h0
  rw [show outsAt0 m c (k + 1) hn = _ from e]
  dsimp only
  rw [Pieces.out_B_2, Pieces.out_B_3]
  exact ⟨later_apply (V m c main_v0) (iblk m c 0 ⟨k + 1, hn⟩) _ (k + 1) hN (fun b r e => blk0 m c (k + 1) hn hN b r e) r d,
    later_apply' (V m c main_v1) (iblk m c 1 ⟨k + 1, hn⟩) _ (k + 1) hN (fun b r e => blk1 m c (k + 1) hn hN b r e) r d⟩

/-- After point `n` the accumulators hold the slabs of the time blocks `0 … n % 16` of trajectory block `n / 16`. -/
theorem acc_eq (c : Dev nD) : ∀ (n : ℕ) (hn : n < cfg0.N) (r : Fin 1024) (d : Fin 64),
    (outsAt0 m c n hn).1 (ix2 r d) = psum (V m c main_v0) n r d
    ∧ (outsAt0 m c n hn).2 (ix2 r d) = psum (V m c main_v1) n r d := by
  intro n
  induction n with
  | zero => intro hn r d; exact acc_first m c 0 hn (Nat.zero_mod 16) r d
  | succ k ih =>
    intro hn r d
    by_cases h0 : (k + 1) % 16 = 0
    · exact acc_first m c (k + 1) hn h0 r d
    · exact acc_later m c k hn h0 r d (ih (Nat.lt_of_succ_lt hn) r d).1 (ih (Nat.lt_of_succ_lt hn) r d).2

end Cert.KernelIdeal.Accum

end
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.Final.lean ====
/-
  The two summed arrays the region leaves, and the number the host lines after it compute from them.

  After the last time block of a trajectory block the accumulator holds, at `(r, d)`, the sum over all 16 time blocks
  of 8 of the normalized entries of trajectory `1024 q + r`: the sum over all 128 times. The two trajectory blocks
  tile the [2048, 64] result, so each result array ends at `(n, d) ↦ Σ_t (normalized entry (t, n, d))`. The host then
  multiplies the two arrays entry by entry, sums everything, negates and divides by the number of terms.
-/
import proofs.«120085_j13872744366785_2_alg».proof.Proof.Accum
import proofs.«120085_j13872744366785_2_alg».proof.Proof.LibSumSplit
import Idealize.ShloMosaic.Lib.StableHlo.Run

noncomputable section

open scoped BigOperators

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.PayValue Cert.KernelIdeal.Accum

/-- The sum over all 128 times of the normalized entries of trajectory `n`, feature `d`. -/
def timeSumAt (A : S128x2048x64.Idx → EReal) (n : Fin 2048) (d : Fin 64) : EReal := ∑ t : Fin 128, nent A t n d

/-- The same as a [2048, 64] array. -/
def timeSum (A : S128x2048x64.Idx → EReal) : S2048x64.Idx → EReal := fun i => timeSumAt A (i 0) (i 1)

/-- The 16 time blocks of 8 together are the 128 times. -/
theorem full_sum (A : S128x2048x64.Idx → EReal) (q : ℕ) (hq : q < 2) (r : Fin 1024) (d : Fin 64)
    (h : q * 1024 + r.val < 2048) :
    ∑ j ∈ Finset.range 16, slab A q r d j = timeSumAt A ⟨q * 1024 + r.val, h⟩ d := by
  unfold timeSumAt
  rw [Cert.PointDist.sum_tiles (a := 16) (b := 8) (N := 128) rfl, Finset.sum_range]
  refine Finset.sum_congr rfl fun j _ => ?_
  unfold slab
  rw [dif_pos ⟨j.isLt, hq⟩]
  rfl

variable (m : (ℓ : Loc nD τ sig) → Buf (Elt Ideal) ℓ) (ρ : Dev nD → PrngReg)

/-- The output windows' block index at point `t`: trajectory block `t / 16`, all 64 features. -/
theorem idx_out2 : ∀ t : Fin cfg0.N, win0_2.index t 0 = t.val / 16 ∧ win0_2.index t 1 = 0 :=
  (by decide +kernel : ∀ t : Fin grid0.N, win0_2.index t 0 = t.val / 16 ∧ win0_2.index t 1 = 0)
theorem idx_out3 : ∀ t : Fin cfg0.N, win0_3.index t 0 = t.val / 16 ∧ win0_3.index t 1 = 0 :=
  (by decide +kernel : ∀ t : Fin grid0.N, win0_3.index t 0 = t.val / 16 ∧ win0_3.index t 1 = 0)

/-- What a write-back point writes to the first result is its block of the summed array. -/
theorem flushed2_eq (c : Dev nD) (t : Fin cfg0.N) (hf : (cfg0.win 2).flush t = true) :
    (dats m 0 c).flushed 2 t = ((cfg0.win 2).blk t).view.read (Elt Ideal) (timeSum (V m c main_v0)) := by
  have h15 : t.val % 16 = 15 := (flush0_2 t).mp hf
  have hN : t.val < 32 := lt_of_lt_of_eq t.isLt N_0
  have o0 : win0_2.index t 0 = t.val / 16 := (idx_out2 t).1
  have o1 : win0_2.index t 1 = 0 := (idx_out2 t).2
  show (cfg0.win 2).cut (grid0.coords t) ((dats m 0 c).after 2 t) = _
  rw [after0_2]
  funext j
  obtain ⟨r, d, rfl⟩ : ∃ (r : Fin 1024) (d : Fin 64), j = ix2 r d := ⟨j 0, j 1, eq_ix2 j⟩
  show (outsAt0 m c t.val t.isLt).1 (ix2 r d) = timeSum (V m c main_v0) (((cfg0.win 2).blk t).view.emb (ix2 r d))
  rw [(acc_eq m c t.val t.isLt r d).1]
  unfold psum
  rw [h15, full_sum (V m c main_v0) (t.val / 16) (by omega) r d (by have := r.isLt; omega)]
  show timeSum (V m c main_v0) (ix2 ⟨t.val / 16 * 1024 + r.val, by have := r.isLt; omega⟩ d) = _
  refine congrArg (timeSum (V m c main_v0)) (funext fun a => Fin.ext ?_)
  match a with
  | ⟨0, _⟩ => show t.val / 16 * 1024 + r.val = win0_2.index t 0 * 1024 + 1 * r.val; rw [o0]; omega
  | ⟨1, _⟩ => show d.val = win0_2.index t 1 * 64 + 1 * d.val; rw [o1]; omega

/-- What a write-back point writes to the second result is its block of the summed array. -/
theorem flushed3_eq (c : Dev nD) (t : Fin cfg0.N) (hf : (cfg0.win 3).flush t = true) :
    (dats m 0 c).flushed 3 t = ((cfg0.win 3).blk t).view.read (Elt Ideal) (timeSum (V m c main_v1)) := by
  have h15 : t.val % 16 = 15 := (flush0_3 t).mp hf
  have hN : t.val < 32 := lt_of_lt_of_eq t.isLt N_0
  have o0 : win0_3.index t 0 = t.val / 16 := (idx_out3 t).1
  have o1 : win0_3.index t 1 = 0 := (idx_out3 t).2
  show (cfg0.win 3).cut (grid0.coords t) ((dats m 0 c).after 3 t) = _
  rw [after0_3]
  funext j
  obtain ⟨r, d, rfl⟩ : ∃ (r : Fin 1024) (d : Fin 64), j = ix2 r d := ⟨j 0, j 1, eq_ix2 j⟩
  show (outsAt0 m c t.val t.isLt).2 (ix2 r d) = timeSum (V m c main_v1) (((cfg0.win 3).blk t).view.emb (ix2 r d))
  rw [(acc_eq m c t.val t.isLt r d).2]
  unfold psum
  rw [h15, full_sum (V m c main_v1) (t.val / 16) (by omega) r d (by have := r.isLt; omega)]
  show timeSum (V m c main_v1) (ix2 ⟨t.val / 16 * 1024 + r.val, by have := r.isLt; omega⟩ d) = _
  refine congrArg (timeSum (V m c main_v1)) (funext fun a => Fin.ext ?_)
  match a with
  | ⟨0, _⟩ => show t.val / 16 * 1024 + r.val = win0_3.index t 0 * 1024 + 1 * r.val; rw [o0]; omega
  | ⟨1, _⟩ => show d.val = win0_3.index t 1 * 64 + 1 * d.val; rw [o1]; omega

/-- An index of a result array is in point `t`'s block iff each coordinate is in the block's range on its axis. -/
theorem mem_blk2 (t : Fin cfg0.N) (i : S2048x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v2_0).slice (win0_2.rect t)).set ↔ _
  rw [View.set_slice_whole, Rect.mem_set_unit]
  exact Iff.rfl
theorem mem_blk3 (t : Fin cfg0.N) (i : S2048x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v2_1).slice (win0_3.rect t)).set ↔ _
  rw [View.set_slice_whole, Rect.mem_set_unit]
  exact Iff.rfl

/-- Trajectory `n` is written back by the last time block of its trajectory block, point `16 · (n / 1024) + 15`. -/
theorem cover2 (i : S2048x64.Idx) : ∃ t : Fin cfg0.N, (cfg0.win 2).flush t = true ∧ i ∈ ((cfg0.win 2).blk t).view.set := by
  have hi0 : (i 0).val < 2048 := (i 0).isLt
  have hi1 : (i 1).val < 64 := (i 1).isLt
  have hN : cfg0.N = 32 := N_0
  let t : Fin cfg0.N := ⟨(i 0).val / 1024 * 16 + 15, by rw [hN]; omega⟩
  have tv : t.val = (i 0).val / 1024 * 16 + 15 := rfl
  have o0 : win0_2.index t 0 = t.val / 16 := (idx_out2 t).1
  have o1 : win0_2.index t 1 = 0 := (idx_out2 t).2
  refine ⟨t, (flush0_2 t).mpr (by rw [tv]; omega), ?_⟩
  rw [mem_blk2]
  intro a
  match a with
  | ⟨0, _⟩ => show win0_2.index t 0 * 1024 ≤ (i 0).val ∧ (i 0).val < win0_2.index t 0 * 1024 + 1024; rw [o0, tv]; omega
  | ⟨1, _⟩ => show win0_2.index t 1 * 64 ≤ (i 1).val ∧ (i 1).val < win0_2.index t 1 * 64 + 64; rw [o1]; omega
theorem cover3 (i : S2048x64.Idx) : ∃ t : Fin cfg0.N, (cfg0.win 3).flush t = true ∧ i ∈ ((cfg0.win 3).blk t).view.set := by
  have hi0 : (i 0).val < 2048 := (i 0).isLt
  have hi1 : (i 1).val < 64 := (i 1).isLt
  have hN : cfg0.N = 32 := N_0
  let t : Fin cfg0.N := ⟨(i 0).val / 1024 * 16 + 15, by rw [hN]; omega⟩
  have tv : t.val = (i 0).val / 1024 * 16 + 15 := rfl
  have o0 : win0_3.index t 0 = t.val / 16 := (idx_out3 t).1
  have o1 : win0_3.index t 1 = 0 := (idx_out3 t).2
  refine ⟨t, (flush0_3 t).mpr (by rw [tv]; omega), ?_⟩
  rw [mem_blk3]
  intro a
  match a with
  | ⟨0, _⟩ => show win0_3.index t 0 * 1024 ≤ (i 0).val ∧ (i 0).val < win0_3.index t 0 * 1024 + 1024; rw [o0, tv]; omega
  | ⟨1, _⟩ => show win0_3.index t 1 * 64 ≤ (i 1).val ∧ (i 1).val < win0_3.index t 1 * 64 + 64; rw [o1]; omega

/-- So the two result arrays end at the sums over time. -/
theorem final2 (c : Dev nD) : (dats m 0 c).arrAt 2 cfg0.N = timeSum (V m c main_v0) :=
  (dats m 0 c).arrAt_eq_of_cover 2 (timeSum (V m c main_v0)) (flushed2_eq m c) cover2
theorem final3 (c : Dev nD) : (dats m 0 c).arrAt 3 cfg0.N = timeSum (V m c main_v1) :=
  (dats m 0 c).arrAt_eq_of_cover 3 (timeSum (V m c main_v1)) (flushed3_eq m c) cover3

/-- The reshape before the region: entry `(t, n, d)` of the [128, 2048, 64] array is entry `(2048 t + n, d)` of the
    argument. -/
theorem V_main_v0_apply (c : Dev nD) (t : Fin 128) (n : Fin 2048) (d : Fin 64) :
    V m c main_v0 (ix3 t n d)
      = m ((c : Thread nD τ).loc main_arg0) (ix2 ⟨t.val * 2048 + n.val, by have := t.isLt; have := n.isLt; omega⟩ d) := by
  have e : (V m c main_v0 : S128x2048x64.Idx → EReal)
      = shapeCast S128x2048x64 (m ((c : Thread nD τ).loc main_arg0)) Facts₀.shapeCasts_S262144x64_S128x2048x64 := by
    show StableHlo.after hostOps0 (fun b => m (c, b)) (Proc.devRef .tc main_v0) = _
    after_results
    rfl
  rw [e]
  refine shapeCast_apply _ Facts₀.shapeCasts_S262144x64_S128x2048x64 (ix3 t n d) (ix2 ⟨t.val * 2048 + n.val, _⟩ d) ?_
  rw [Shape.rowMajor_val_two, Shape.rowMajor_val_three]
  show (t.val * 2048 + n.val) * 64 + d.val = (t.val * 2048 + n.val) * 64 + d.val
  rfl

theorem V_main_v1_apply (c : Dev nD) (t : Fin 128) (n : Fin 2048) (d : Fin 64) :
    V m c main_v1 (ix3 t n d)
      = m ((c : Thread nD τ).loc main_arg1) (ix2 ⟨t.val * 2048 + n.val, by have := t.isLt; have := n.isLt; omega⟩ d) := by
  have e : (V m c main_v1 : S128x2048x64.Idx → EReal)
      = shapeCast S128x2048x64 (m ((c : Thread nD τ).loc main_arg1)) Facts₀.shapeCasts_S262144x64_S128x2048x64 := by
    show StableHlo.after hostOps0 (fun b => m (c, b)) (Proc.devRef .tc main_v1) = _
    after_results
    rfl
  rw [e]
  refine shapeCast_apply _ Facts₀.shapeCasts_S262144x64_S128x2048x64 (ix3 t n d) (ix2 ⟨t.val * 2048 + n.val, _⟩ d) ?_
  rw [Shape.rowMajor_val_two, Shape.rowMajor_val_three]
  show (t.val * 2048 + n.val) * 64 + d.val = (t.val * 2048 + n.val) * 64 + d.val
  rfl

/-- The host lines after the region, as one function of the two result arrays: multiply entry by entry, sum
    everything from zero, negate, divide by 33554432. -/
def tail (a b : FVec Ideal S2048x64 .f32) : FVec Ideal S_ .f32 :=
  Host.divf (F := Ideal)
    (Host.negf (F := Ideal)
      (Host.reduceAdd (F := Ideal) (mulf a b) (constant (F := Ideal) S_ .f32 0x00000000#32)
        Facts₀.reducesTo_S2048x64_S_d0_1 Facts₀.h_S_))
    (constant (F := Ideal) S_ .f32 0x4C000000#32)

/-- What the program's result buffer holds after the lines that follow the region. -/
theorem tail_eq (c : Dev nD) :
    Pipeline.afterTail₀ cfgs (dats m) 0 (V0 m) [hostOps1] c main_v6
      = tail (timeSum (V m c main_v0)) (timeSum (V m c main_v1)) := by
  have e2 := (Pipeline.withArrays_arr spec0 launch0.win.arr_inj c (V0 m c)
    (fun w => (dats m 0 c).arrAt w cfg0.N) 2).trans (final2 m c)
  have e3 := (Pipeline.withArrays_arr spec0 launch0.win.arr_inj c (V0 m c)
    (fun w => (dats m 0 c).arrAt w cfg0.N) 3).trans (final3 m c)
  unfold Pipeline.afterTail₀
  show StableHlo.after hostOps1 _ (Proc.devRef .tc main_v6) = _
  after_results
  rw [e2, e3]
  rfl

/-- The run, read: the result buffer at the tail of the two summed arrays, the arguments unchanged. -/
theorem run : θ_run defs (onTc (τ := τ) (main (F := Ideal))) ⟨m, fun _ => 0, ρ⟩ fun r => ∀ c : Dev nD,
      r.2.mem ((c : Thread nD τ).loc main_v6) = tail (timeSum (V m c main_v0)) (timeSum (V m c main_v1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.Consts.lean ====
/-
  The float literals the two programs spell, as the numbers their bit patterns denote. Stated once, here, so that no
  other module opens the decoding of a pattern.
-/
import Idealize.ShloMosaic.PureOps.Ideal
import Idealize.ShloMosaic.PureOps.Ideal.Laws

noncomputable section

namespace Cert.Consts

open Idealize.ShloMosaic

/-- The clamp of a row's norm, `9.99999996e-13`: sign 0, exponent 87, fraction 834764, that is
    (2²³ + 834764) · 2⁻⁶³ = 2305843 / 2⁶¹. -/
theorem ofBits_clamp : Ideal.ofBits .f32 0x2B8CBCCC#32 = ((2305843 / 2305843009213693952 : ℝ) : EReal) := by
  simp [Ideal.ofBits, Ideal.ieee, -EReal.coe_mul]; norm_num

/-- The number of inner products averaged, `33554432.0` = 2²⁵ = 2048 · 128 · 128. -/
theorem ofBits_count : Ideal.ofBits .f32 0x4C000000#32 = ((33554432 : ℝ) : EReal) := by
  simp [Ideal.ofBits, Ideal.ieee, -EReal.coe_mul]; norm_num

/-- The all-ones exponent with a zero fraction denotes `+∞`: what "finite" is compared against. -/
theorem ofBits_inf : Ideal.ofBits .f32 0x7F800000#32 = ⊤ := by
  simp [Ideal.ofBits, Ideal.ieee]

/-- `+0.0` denotes zero. -/
theorem ofBits_zero : Ideal.ofBits .f32 0x00000000#32 = 0 := Ideal.ofBits_zero_f32

end Cert.Consts

end
-- ==== Proof.KernelLoss.lean ====
/-
  The number the kernel's program returns, when every input entry is a real number.

  With real inputs every row's sum of squares is a nonnegative real, its clamp is positive, the reciprocal square root
  is the inverse of a real square root, and the normalized entry is the real `Spec.unit`. The sums over time, the
  entrywise product, the total sum, the negation and the division by 33554432 are then all sums and products of reals,
  and what comes out is `Spec.lossSummed`, the loss with the sums over time taken first.
-/
import proofs.«120085_j13872744366785_2_alg».proof.Proof.Final
import proofs.«120085_j13872744366785_2_alg».proof.Proof.Spec
import proofs.«120085_j13872744366785_2_alg».proof.Proof.Consts
import Idealize.ShloMosaic.PureOps.IdealRules

noncomputable section

open scoped BigOperators

namespace Cert.KernelIdeal.Loss

open Idealize.ShloMosaic Idealize.ShloMosaic.TcCoe Idealize.SL.Sem Idealize.ShloMosaic.ValueIdx
open Cert.KernelIdeal Cert.KernelIdeal.Gen Cert.KernelIdeal.PayValue Cert.KernelIdeal.Accum Cert.KernelIdeal.Final

/-- The larger of two reals read in the extended reals is the larger of the two read there. -/
theorem max_coe (a b : ℝ) : max (a : EReal) (b : EReal) = ((max a b : ℝ) : EReal) :=
  (EReal.coe_strictMono.monotone.map_max).symm

/-- The named clamp of the sum of squares is the square of the clamp of the norm. -/
theorem epsSq_eq : epsSq = ((Cert.Spec.clamp * Cert.Spec.clamp : ℝ) : EReal) := by
  unfold epsSq
  rw [IdealRules.named_const.ideal_named_scalar _ _ _ _ rfl, Cert.Spec.clamp_sq]

/-- A normalized entry of an array of reals is the real normalized entry. -/
theorem nent_real (A : S128x2048x64.Idx → EReal) (P : Fin 262144 → Fin 64 → ℝ)
    (hA : ∀ (t : Fin 128) (n : Fin 2048) (d : Fin 64), A (ix3 t n d) = ((P (Cert.Spec.rowOf t n) d : ℝ) : EReal))
    (t : Fin 128) (n : Fin 2048) (d : Fin 64) : nent A t n d = ((Cert.Spec.unit P t n d : ℝ) : EReal) := by
  unfold nent Cert.Spec.unit
  simp only [hA]
  rw [epsSq_eq]
  simp only [← EReal.coe_mul, ← Cert.Spec.coe_sum, max_coe]
  rw [Ideal.rsqrt_coe, if_neg (not_lt.mpr (Cert.Spec.clamped_pos _).le), if_neg (Cert.Spec.clamped_pos _).ne',
    ← EReal.coe_mul, Cert.Spec.rsqrt_form]

/-- So is the sum over time. -/
theorem timeSumAt_real (A : S128x2048x64.Idx → EReal) (P : Fin 262144 → Fin 64 → ℝ)
    (hA : ∀ (t : Fin 128) (n : Fin 2048) (d : Fin 64), A (ix3 t n d) = ((P (Cert.Spec.rowOf t n) d : ℝ) : EReal))
    (n : Fin 2048) (d : Fin 64) : timeSumAt A n d = ((∑ t : Fin 128, Cert.Spec.unit P t n d : ℝ) : EReal) := by
  unfold timeSumAt
  rw [Cert.Spec.coe_sum]
  exact Finset.sum_congr rfl fun t _ => nent_real A P hA t n d

/-- The host lines after the region, on the two sums over time of arrays of reals, give the loss with the sums over
    time taken first. -/
theorem tail_real (A B : S128x2048x64.Idx → EReal) (P Z : Fin 262144 → Fin 64 → ℝ)
    (hA : ∀ (t : Fin 128) (n : Fin 2048) (d : Fin 64), A (ix3 t n d) = ((P (Cert.Spec.rowOf t n) d : ℝ) : EReal))
    (hB : ∀ (t : Fin 128) (n : Fin 2048) (d : Fin 64), B (ix3 t n d) = ((Z (Cert.Spec.rowOf t n) d : ℝ) : EReal))
    (i : S_.Idx) : tail (timeSum A) (timeSum B) i = ((Cert.Spec.lossSummed P Z : ℝ) : EReal) := by
  have hsum : Host.reduceAdd (F := Ideal) (mulf (timeSum A) (timeSum B)) (constant (F := Ideal) S_ .f32 0x00000000#32)
      Facts₀.reducesTo_S2048x64_S_d0_1 Facts₀.h_S_ i
      = Ideal.ofBits .f32 0x00000000#32
        + ∑ j : S2048x64.Idx, (mulf (F := Ideal) (s := S2048x64) (φ := .f32) (timeSum A) (timeSum B)) j := by
    simp only [Host.reduceAdd, Ideal.hostReduceAdd_def]
    exact Ideal.hostReduceAdd_total Facts₀.reducesTo_S2048x64_S_d0_1 (fun b => b.elim0) _ _ i
  have hent : ∀ (n : Fin 2048) (d : Fin 64),
      (mulf (F := Ideal) (s := S2048x64) (φ := .f32) (timeSum A) (timeSum B)) (ix2 n d)
      = (((∑ t : Fin 128, Cert.Spec.unit P t n d) * (∑ s : Fin 128, Cert.Spec.unit Z s n d) : ℝ) : EReal) := fun n d => by
    show timeSumAt A n d * timeSumAt B n d = _
    rw [timeSumAt_real A P hA, timeSumAt_real B Z hB, EReal.coe_mul]
  show Ideal.div (-(Host.reduceAdd (F := Ideal) (mulf (timeSum A) (timeSum B)) (constant (F := Ideal) S_ .f32 0x00000000#32)
      Facts₀.reducesTo_S2048x64_S_d0_1 Facts₀.h_S_ i)) (Ideal.ofBits .f32 0x4C000000#32) = _
  rw [hsum, Ideal.ofBits_zero_f32, zero_add, sum_idx2]
  simp only [hent, ← Cert.Spec.coe_sum]
  rw [Cert.Consts.ofBits_count, Ideal.div_coe (by norm_num : (33554432 : ℝ) ≠ 0), ← EReal.coe_neg, ← EReal.coe_mul]
  unfold Cert.Spec.lossSummed
  congr 1
  ring

end Cert.KernelIdeal.Loss

end
-- ==== Proof.RefRead.lean ====
/-
  The reference's result read index by index, as a real number.

  Each row of an input is divided by its Euclidean norm clamped from below; the rows are regrouped as (trajectory, time),
  every pair of times of one trajectory is contracted over the 64 coordinates, and minus the mean of all these inner
  products is returned. Read entry by entry on real inputs, every intermediate value is a real number, and the last one
  is the loss of the specification.
-/
import proofs.«120085_j13872744366785_2_alg».proof.Proof.Gen.ReferenceIdeal.Read
import Idealize.ShloMosaic.Lib.ValueIdx
import Idealize.ShloMosaic.PureOps.Ideal.Laws
import proofs.«120085_j13872744366785_2_alg».proof.Proof.Spec
import proofs.«120085_j13872744366785_2_alg».proof.Proof.Consts

noncomputable section

open scoped BigOperators

namespace Cert.ReferenceIdeal.RefValue

open Cert.ReferenceIdeal Cert.ReferenceIdeal.Read Idealize.ShloMosaic Idealize.ShloMosaic.ValueIdx

/-- The larger of two reals, read in the extended reals, is the larger of the two read there. -/
theorem coe_max (a b : ℝ) : ((max a b : ℝ) : EReal) = max (a : EReal) (b : EReal) :=
  EReal.coe_strictMono.monotone.map_max

/-! ### The first input: a row's sum of squares, its clamped norm, the normalized entry -/

/-- The sum of the squares of row `r` of the first input. -/
theorem sumsq_p (x0 : S262144x64.Idx → EReal) (P : Fin 262144 → Fin 64 → ℝ)
    (h0 : ∀ r d, x0 (ix2 r d) = ((P r d : ℝ) : EReal)) (r : Fin 262144) :
    val_main_call0_v1 (F := Ideal) x0 (ix1 r) = ((∑ e, P r e * P r e : ℝ) : EReal) := by
  rw [val_main_call0_v1_apply, val_main_call0_cst_apply, Ideal.ofBits_def, Cert.Consts.ofBits_zero, zero_add,
    Cert.Spec.coe_sum]
  refine Finset.sum_congr rfl fun k _ => ?_
  have e : idx_main_call0_v1 (ix1 r) k = ix2 r k :=
    funext fun a => Fin.ext (by match a with | ⟨0, _⟩ => rfl | ⟨1, _⟩ => rfl)
  rw [val_main_call0_v0_apply, e, h0, Ideal.mulf_def, EReal.coe_mul]

/-- The clamped norm of row `r` of the first input, in the one column it is kept in. -/
theorem nrm_p (x0 : S262144x64.Idx → EReal) (P : Fin 262144 → Fin 64 → ℝ)
    (h0 : ∀ r d, x0 (ix2 r d) = ((P r d : ℝ) : EReal)) (r : Fin 262144) (c : Fin 1) :
    val_main_v2 (F := Ideal) x0 (ix2 r c) = ((Cert.Spec.nrm (P r) : ℝ) : EReal) := by
  have e : idx_main_call0_v2 (ix2 r c) = ix1 r :=
    funext fun a => Fin.ext (by match a with | ⟨0, _⟩ => rfl)
  rw [val_main_v2_apply, val_main_v0_apply, val_main_call0_v2_apply, val_main_v1_apply, val_main_cst_apply, e,
    sumsq_p x0 P h0, Ideal.hostUnary_sqrt_def, Ideal.sqrt_coe, if_neg (not_lt.mpr (Cert.Spec.sumsq_nonneg _)),
    Ideal.ofBits_def, Cert.Consts.ofBits_clamp, Ideal.maximumf_def, ← coe_max]
  rfl

/-- Entry `(r, d)` of the first input divided by the clamped norm of its row. -/
theorem unit_p (x0 : S262144x64.Idx → EReal) (P : Fin 262144 → Fin 64 → ℝ)
    (h0 : ∀ r d, x0 (ix2 r d) = ((P r d : ℝ) : EReal)) (r : Fin 262144) (d : Fin 64) :
    val_main_v4 (F := Ideal) x0 (ix2 r d) = ((P r d / Cert.Spec.nrm (P r) : ℝ) : EReal) := by
  have e : idx_main_v3 (ix2 r d) = ix2 r (0 : Fin 1) :=
    funext fun a => Fin.ext (by match a with | ⟨0, _⟩ => rfl | ⟨1, _⟩ => rfl)
  rw [val_main_v4_apply, val_main_v3_apply, e, nrm_p x0 P h0, h0, Ideal.hostDivf_def,
    Ideal.div_coe (Cert.Spec.nrm_pos _).ne', ← EReal.coe_mul, one_div, ← div_eq_mul_inv]

/-- Regrouped by trajectory and time: entry `(n, t, k)` is coordinate `k` of the normalized row of trajectory `n` at
    time `t`; the row of the flat array is `t * 2048 + n` because `((t * 2048 + n) * 64 + k) / 64 = t * 2048 + n`. -/
theorem grouped_p (x0 : S262144x64.Idx → EReal) (P : Fin 262144 → Fin 64 → ℝ)
    (h0 : ∀ r d, x0 (ix2 r d) = ((P r d : ℝ) : EReal)) (n : Fin 2048) (t : Fin 128) (k : Fin 64) :
    val_main_v6 (F := Ideal) x0 (ix3 n t k) = ((Cert.Spec.unit P t n k : ℝ) : EReal) := by
  have e : idx_main_v5 (idx_main_v6 (ix3 n t k)) = ix2 (Cert.Spec.rowOf t n) k :=
    funext fun a => Fin.ext (by
      have hk := k.isLt
      match a with
      | ⟨0, _⟩ => show ((t.val * 2048 + n.val) * 64 + k.val) / 64 = t.val * 2048 + n.val; omega
      | ⟨1, _⟩ => show ((t.val * 2048 + n.val) * 64 + k.val) % 64 = k.val; omega)
  rw [val_main_v6_apply, val_main_v5_apply, e, unit_p x0 P h0]
  rfl

/-! ### The second input: the same four readings -/

/-- The sum of the squares of row `r` of the second input. -/
theorem sumsq_z (x1 : S262144x64.Idx → EReal) (Z : Fin 262144 → Fin 64 → ℝ)
    (h1 : ∀ r d, x1 (ix2 r d) = ((Z r d : ℝ) : EReal)) (r : Fin 262144) :
    val_main_call1_v1 (F := Ideal) x1 (ix1 r) = ((∑ e, Z r e * Z r e : ℝ) : EReal) := by
  rw [val_main_call1_v1_apply, val_main_call1_cst_apply, Ideal.ofBits_def, Cert.Consts.ofBits_zero, zero_add,
    Cert.Spec.coe_sum]
  refine Finset.sum_congr rfl fun k _ => ?_
  have e : idx_main_call1_v1 (ix1 r) k = ix2 r k :=
    funext fun a => Fin.ext (by match a with | ⟨0, _⟩ => rfl | ⟨1, _⟩ => rfl)
  rw [val_main_call1_v0_apply, e, h1, Ideal.mulf_def, EReal.coe_mul]

/-- The clamped norm of row `r` of the second input, in the one column it is kept in. -/
theorem nrm_z (x1 : S262144x64.Idx → EReal) (Z : Fin 262144 → Fin 64 → ℝ)
    (h1 : ∀ r d, x1 (ix2 r d) = ((Z r d : ℝ) : EReal)) (r : Fin 262144) (c : Fin 1) :
    val_main_v9 (F := Ideal) x1 (ix2 r c) = ((Cert.Spec.nrm (Z r) : ℝ) : EReal) := by
  have e : idx_main_call1_v2 (ix2 r c) = ix1 r :=
    funext fun a => Fin.ext (by match a with | ⟨0, _⟩ => rfl)
  rw [val_main_v9_apply, val_main_v7_apply, val_main_call1_v2_apply, val_main_v8_apply, val_main_cst_0_apply, e,
    sumsq_z x1 Z h1, Ideal.hostUnary_sqrt_def, Ideal.sqrt_coe, if_neg (not_lt.mpr (Cert.Spec.sumsq_nonneg _)),
    Ideal.ofBits_def, Cert.Consts.ofBits_clamp, Ideal.maximumf_def, ← coe_max]
  rfl

/-- Entry `(r, d)` of the second input divided by the clamped norm of its row. -/
theorem unit_z (x1 : S262144x64.Idx → EReal) (Z : Fin 262144 → Fin 64 → ℝ)
    (h1 : ∀ r d, x1 (ix2 r d) = ((Z r d : ℝ) : EReal)) (r : Fin 262144) (d : Fin 64) :
    val_main_v11 (F := Ideal) x1 (ix2 r d) = ((Z r d / Cert.Spec.nrm (Z r) : ℝ) : EReal) := by
  have e : idx_main_v10 (ix2 r d) = ix2 r (0 : Fin 1) :=
    funext fun a => Fin.ext (by match a with | ⟨0, _⟩ => rfl | ⟨1, _⟩ => rfl)
  rw [val_main_v11_apply, val_main_v10_apply, e, nrm_z x1 Z h1, h1, Ideal.hostDivf_def,
    Ideal.div_coe (Cert.Spec.nrm_pos _).ne', ← EReal.coe_mul, one_div, ← div_eq_mul_inv]

/-- Regrouped by trajectory and time: entry `(n, t, k)` is coordinate `k` of the normalized row of trajectory `n` at
    time `t`; the row of the flat array is `t * 2048 + n` because `((t * 2048 + n) * 64 + k) / 64 = t * 2048 + n`. -/
theorem grouped_z (x1 : S262144x64.Idx → EReal) (Z : Fin 262144 → Fin 64 → ℝ)
    (h1 : ∀ r d, x1 (ix2 r d) = ((Z r d : ℝ) : EReal)) (n : Fin 2048) (t : Fin 128) (k : Fin 64) :
    val_main_v13 (F := Ideal) x1 (ix3 n t k) = ((Cert.Spec.unit Z t n k : ℝ) : EReal) := by
  have e : idx_main_v12 (idx_main_v13 (ix3 n t k)) = ix2 (Cert.Spec.rowOf t n) k :=
    funext fun a => Fin.ext (by
      have hk := k.isLt
      match a with
      | ⟨0, _⟩ => show ((t.val * 2048 + n.val) * 64 + k.val) / 64 = t.val * 2048 + n.val; omega
      | ⟨1, _⟩ => show ((t.val * 2048 + n.val) * 64 + k.val) % 64 = k.val; omega)
  rw [val_main_v13_apply, val_main_v12_apply, e, unit_z x1 Z h1]
  rfl

/-! ### The contraction, the total, the mean -/

/-- Entry `(n, t, s)` of the contraction: the inner product of the normalized row of trajectory `n` at time `t` of the
    first input with the normalized row of the same trajectory at time `s` of the second. -/
theorem dot_at (x0 x1 : S262144x64.Idx → EReal) (P Z : Fin 262144 → Fin 64 → ℝ)
    (h0 : ∀ r d, x0 (ix2 r d) = ((P r d : ℝ) : EReal)) (h1 : ∀ r d, x1 (ix2 r d) = ((Z r d : ℝ) : EReal))
    (n : Fin 2048) (t s : Fin 128) :
    val_main_v14 (F := Ideal) x0 x1 (ix3 n t s)
      = ((∑ k : Fin 64, Cert.Spec.unit P t n k * Cert.Spec.unit Z s n k : ℝ) : EReal) := by
  rw [val_main_v14_apply, Cert.Spec.coe_sum]
  refine Finset.sum_congr rfl fun k _ => ?_
  have el : lidx_main_v14 (ix3 n t s) k = ix3 n t k :=
    funext fun a => Fin.ext (by match a with | ⟨0, _⟩ => rfl | ⟨1, _⟩ => rfl | ⟨2, _⟩ => rfl)
  have er : ridx_main_v14 (ix3 n t s) k = ix3 n s k :=
    funext fun a => Fin.ext (by match a with | ⟨0, _⟩ => rfl | ⟨1, _⟩ => rfl | ⟨2, _⟩ => rfl)
  rw [el, er, grouped_p x0 P h0, grouped_z x1 Z h1, EReal.coe_mul]

/-- The sum of all the inner products: the sum over the rank-3 index set is the triple sum over trajectory and the two
    times. -/
theorem total (x0 x1 : S262144x64.Idx → EReal) (P Z : Fin 262144 → Fin 64 → ℝ)
    (h0 : ∀ r d, x0 (ix2 r d) = ((P r d : ℝ) : EReal)) (h1 : ∀ r d, x1 (ix2 r d) = ((Z r d : ℝ) : EReal))
    (i : S_.Idx) :
    val_main_v15 (F := Ideal) x0 x1 i
      = ((∑ n : Fin 2048, ∑ t : Fin 128, ∑ s : Fin 128, ∑ d : Fin 64,
            Cert.Spec.unit P t n d * Cert.Spec.unit Z s n d : ℝ) : EReal) := by
  rw [val_main_v15_apply, val_main_cst_1_apply, Ideal.ofBits_def, Cert.Consts.ofBits_zero, zero_add,
    Cert.Spec.sum_idx3, Cert.Spec.coe_sum]
  refine Finset.sum_congr rfl fun n _ => ?_
  rw [Cert.Spec.coe_sum]
  refine Finset.sum_congr rfl fun t _ => ?_
  rw [Cert.Spec.coe_sum]
  refine Finset.sum_congr rfl fun s _ => ?_
  exact dot_at x0 x1 P Z h0 h1 n t s

/-- The reference's result on real inputs is the loss: the total divided by the number of inner products, negated. -/
theorem ref_eq (x0 x1 : Cert.ReferenceIdeal.S262144x64.Idx → EReal) (P Z : Fin 262144 → Fin 64 → ℝ)
    (h0 : ∀ r d, x0 (ValueIdx.ix2 r d) = ((P r d : ℝ) : EReal)) (h1 : ∀ r d, x1 (ValueIdx.ix2 r d) = ((Z r d : ℝ) : EReal))
    (i : Cert.ReferenceIdeal.S_.Idx) :
    Cert.ReferenceIdeal.Read.val_main_v17 (F := Ideal) x0 x1 i = ((Cert.Spec.loss P Z : ℝ) : EReal) := by
  rw [val_main_v17_apply, val_main_v16_apply, total x0 x1 P Z h0 h1, val_main_cst_2_apply, Ideal.ofBits_def,
    Cert.Consts.ofBits_count, Ideal.hostNegf_def, Ideal.negf_def, Ideal.hostDivf_def,
    Ideal.div_coe (by norm_num : (33554432 : ℝ) ≠ 0), ← EReal.coe_mul, ← EReal.coe_neg, one_div, ← div_eq_mul_inv]
  rfl

end Cert.ReferenceIdeal.RefValue

end
-- ==== Proof.Finite.lean ====
/-
  Finite inputs are real numbers.

  The precondition says of each of the two float inputs that the absolute value of every entry is below +∞. An extended
  real whose absolute value is below +∞ is neither of the two infinities, so it is a real number; choosing that number
  entry by entry gives two real arrays whose entries, read in the extended reals, are the inputs.
-/
import proofs.«120085_j13872744366785_2_alg».proof.Proof.Gen.Pre_finite_inputs
import proofs.«120085_j13872744366785_2_alg».proof.Pre_finite_inputs
import proofs.«120085_j13872744366785_2_alg».proof.Proof.Consts
import Idealize.ShloMosaic.Lib.ValueIdx
import Idealize.ShloMosaic.Lib.ReduceAll

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A comparison "below" that came out true holds. -/
theorem lt_of_cmp_olt (x y : EReal) (h : Ideal.cmp .olt x y = 1#1) : x < y := by
  by_contra hn
  rw [Ideal.cmp, decide_eq_false hn] at h
  exact absurd h (by decide)

variable [Facts]

/-- One `all(|a| < +∞)` that came out true: every entry of `a` is a real number. -/
theorem entry_real (a : FVec Ideal S262144x64 .f32) (init : IVec S_ 1) (j : S_.Idx)
    (e : Host.reduce IntOp.andi
          (cmpf .olt (Host.absf a)
            (broadcastInDim S262144x64 ![] Facts.bcast_S_S262144x64 (constant (F := Ideal) S_ .f32 0x7F800000#32)))
          init Facts.reducesTo_S262144x64_S_d0_1 Facts.h_S_ j = 1#1)
    (i : S262144x64.Idx) : ∃ r : ℝ, a i = (r : EReal) := by
  have hi : Ideal.cmp .olt (max (a i) (-(a i))) (Ideal.ofBits .f32 0x7F800000#32) = 1#1 :=
    Host.reduce_andi_all _ _ _ _ j e i
  rw [Cert.Consts.ofBits_inf] at hi
  exact real_of_abs_lt_top (a i) (lt_of_cmp_olt _ _ hi)

/-- Under the precondition both float inputs are arrays of real numbers. -/
theorem reals_of_pre (a0 a1 : FVec Ideal Cert.Pre_finite_inputs.S262144x64 .f32) (a2 : IVec Cert.Pre_finite_inputs.S128x2048 32)
    (h : Cert.Pre_finite_inputs.fn (F := Ideal) a0 a1 a2 = fun _ => 1#1) :
    ∃ P Z : Fin 262144 → Fin 64 → ℝ, (∀ r d, a0 (ValueIdx.ix2 r d) = ((P r d : ℝ) : EReal)) ∧ (∀ r d, a1 (ValueIdx.ix2 r d) = ((Z r d : ℝ) : EReal)) := by
  have e := congrFun h ValueIdx.ix0
  dsimp only [Cert.Pre_finite_inputs.fn] at e
  obtain ⟨e0, e1⟩ := IntOp.andi_eq_one.1 e
  choose P hP using fun (r : Fin 262144) (d : Fin 64) => entry_real a0 _ _ e0 (ValueIdx.ix2 r d)
  choose Z hZ using fun (r : Fin 262144) (d : Fin 64) => entry_real a1 _ _ e1 (ValueIdx.ix2 r d)
  exact ⟨P, Z, hP, hZ⟩

end Cert.Finite

end
-- ==== Proof.lean ====
/-
  The two programs compute one number.

  Inputs: `p`, `z` of 262144 rows of 64 numbers, read as 128 times × 2048 trajectories (row `2048 t + n`), and an integer
  array neither program reads. Each row is divided by its Euclidean norm clamped from below at `c = 2305843 / 2⁶¹`. The
  reference forms, for every trajectory `n` and every pair of times `(t, s)`, the inner product of the normalized row
  `(t, n)` of `p` with the normalized row `(s, n)` of `z`, and returns minus their mean: `Spec.loss`.

  The kernel sweeps each block of 1024 trajectories through 16 blocks of 8 times, adding the normalized rows into two
  1024 × 64 accumulators that are reset at the first time block and written back after the last (`Accum.acc_eq`, by
  induction on the grid point), so its two result arrays hold the sums over all 128 times of the normalized rows
  (`Final.final2`, `Final.final3`); the host then multiplies them entry by entry, sums, negates and divides by
  2048 · 128 · 128 (`Final.tail_eq`). It normalizes a row by multiplying with the reciprocal square root of the sum of
  squares clamped at the constant named `c²`; the square root being monotone, that is the division by the clamped norm
  (`Spec.rsqrt_form`). A product of two sums over time is the double sum of the products (`Spec.sum_prod_eq`), which needs
  the entries to be real numbers: every input entry is finite by the precondition (`Finite.reals_of_pre`), hence every
  normalized entry is a real, and both programs return that real (`Loss.tail_real`, `RefValue.ref_eq`).

  Neither program writes its arguments: the kernel's frames are the generated ones, the reference's frame is its run with
  the result forgotten. The kernel's idealization names one constant, twice; each naming is the table's entry.
-/
import proofs.«120085_j13872744366785_2_alg».proof.Defs
import proofs.«120085_j13872744366785_2_alg».proof.Proof.Gen.Kernel
import proofs.«120085_j13872744366785_2_alg».proof.Proof.Gen.Kernel.Skeleton
import proofs.«120085_j13872744366785_2_alg».proof.Proof.Gen.Kernel.Launch
import proofs.«120085_j13872744366785_2_alg».proof.Proof.Gen.Kernel.Points
import proofs.«120085_j13872744366785_2_alg».proof.Proof.Gen.Kernel.Frame
import proofs.«120085_j13872744366785_2_alg».proof.Proof.Gen.KernelIdeal
import proofs.«120085_j13872744366785_2_alg».proof.Proof.Gen.KernelIdeal.Skeleton
import proofs.«120085_j13872744366785_2_alg».proof.Proof.Gen.KernelIdeal.Launch
import proofs.«120085_j13872744366785_2_alg».proof.Proof.Gen.KernelIdeal.Points
import proofs.«120085_j13872744366785_2_alg».proof.Proof.Gen.KernelIdeal.Frame
import proofs.«120085_j13872744366785_2_alg».proof.Proof.Gen.ReferenceIdeal
import proofs.«120085_j13872744366785_2_alg».proof.Proof.Gen.Pre_finite_inputs
import proofs.«120085_j13872744366785_2_alg».proof.Proof.Gen.ReferenceIdeal.Run
import proofs.«120085_j13872744366785_2_alg».proof.Proof.Spec
import proofs.«120085_j13872744366785_2_alg».proof.Proof.Final
import proofs.«120085_j13872744366785_2_alg».proof.Proof.KernelLoss
import proofs.«120085_j13872744366785_2_alg».proof.Proof.RefRead
import proofs.«120085_j13872744366785_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The table gives the clamp's name the square of the reference's clamp; the constant is named at two places. -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
    IdealRules.named_const.statement Cert.KernelIdeal.κ "eps_sq" .f32 0x179ABE15#32
      ((5316911940649 / 5316911983139663491615228241121378304 : ℝ) : EReal) rfl⟩

/-- Both programs end with the loss of the real arrays the inputs are. -/
theorem algebraic : Cert.algebraic_KernelIdeal_ReferenceIdeal := by
  intro m ρ m' ρ' hpre hagree
  have hreal : ∀ c : Dev Cert.KernelIdeal.nD, ∃ P Z : Fin 262144 → Fin 64 → ℝ,
      (∀ r d, m ((c.tc : Thread Cert.KernelIdeal.nD Cert.KernelIdeal.τ).loc Cert.KernelIdeal.main_arg0) (ValueIdx.ix2 r d) = ((P r d : ℝ) : EReal))
      ∧ (∀ r d, m ((c.tc : Thread Cert.KernelIdeal.nD Cert.KernelIdeal.τ).loc Cert.KernelIdeal.main_arg1) (ValueIdx.ix2 r d) = ((Z r d : ℝ) : EReal)) :=
    fun c => Cert.Finite.reals_of_pre _ _ _ (hpre c)
  choose P Z hP hZ using hreal
  refine ⟨fun c _ => ((Cert.Spec.loss (P c) (Z c) : ℝ) : EReal), ?_, ?_⟩
  · refine (θ_run Cert.KernelIdeal.defs _ _).mono (fun _ h c => ⟨(h c).1.trans ?_, (h c).2⟩)
      (Cert.KernelIdeal.Final.run m ρ)
    funext i
    rw [Cert.KernelIdeal.Loss.tail_real _ _ (P c) (Z c)
      (fun t n d => (Cert.KernelIdeal.Final.V_main_v0_apply m c t n d).trans (hP c (Cert.Spec.rowOf t n) d))
      (fun t n d => (Cert.KernelIdeal.Final.V_main_v1_apply m c t n d).trans (hZ c (Cert.Spec.rowOf t n) d)) i,
      Cert.Spec.lossSummed_eq]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, (hagree c).1, (hagree c).2.1]
    funext i
    exact Cert.ReferenceIdeal.RefValue.ref_eq _ _ (P c) (Z c) (hP c) (hZ c) i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
